-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S256x128 : Shape := ⟨2, ![256, 128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v0 : BitVec 32 := Scalar.muli arg0 c400_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  h_S400x128 : 0 < S400x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S10000x128, .f32⟩
  | .hbm, ⟨5, _⟩ => ⟨S10000x256, .f32⟩
  | .hbm, ⟨6, _⟩ => ⟨S256x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.SageSpec.lean ====
/-
  The layer as ONE function of the four argument arrays, index by index, on the extended reals.

  With x : [10000,128], adj : [10000,10000], W : [128,256], b : [128], entry (r, o) of the result is

      max ( Σ_{k<128} x[r,k]·W[o,k]  +  Σ_{k<128} (adj·x)[r,k]·W[o,128+k]  +  b[o] ,  0 ),
      (adj·x)[r,k] = Σ_{j<10000} adj[r,j]·x[j,k].

  The weight's 256 columns are met in two halves of 128: the first half multiplies the node's own
  features, the second the aggregated ones. A sum over all 256 columns is the sum of its two halves
  (`sum_halves`): that is the one law between a product with the concatenation [x | adj·x] and the
  two separate products, and it holds in any commutative monoid, so on the extended reals it asks
  nothing of the entries (no finiteness).
-/
import Idealize.ShloMosaic.PureOps.Ideal
import Idealize.ShloMosaic.Lib.ValueIdx

noncomputable section

namespace Cert.SageSpec

open Idealize.ShloMosaic Idealize.ShloMosaic.ValueIdx

/-- The shapes of the four arguments. -/
abbrev SX : Shape := ⟨2, ![10000, 128]⟩
abbrev SA : Shape := ⟨2, ![10000, 10000]⟩
abbrev SW : Shape := ⟨2, ![128, 256]⟩
abbrev SB : Shape := ⟨1, ![128]⟩

/-- Column `k` of the weight's first half, and of its second half, among the 256. -/
abbrev lo (k : Fin 128) : Fin 256 := ⟨k.val, by omega⟩
abbrev hi (k : Fin 128) : Fin 256 := ⟨128 + k.val, by omega⟩

/-- A sum over the 256 columns is the sum over the first 128 plus the sum over the last 128. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- The aggregated features: entry (r, k) of adj · x. -/
def agg (x : SX.Idx → EReal) (adj : SA.Idx → EReal) (r : Fin 10000) (k : Fin 128) : EReal :=
  ∑ j : Fin 10000, adj (ix2 r j) * x (ix2 j k)

/-- The layer's result at an index (r, o) = (i 0, i 1). -/
def layer (x : SX.Idx → EReal) (adj : SA.Idx → EReal) (W : SW.Idx → EReal) (b : SB.Idx → EReal) : SX.Idx → EReal :=
  fun i =>
    max ((∑ k : Fin 128, x (ix2 (i 0) k) * W (ix2 (i 1) (lo k))
          + ∑ k : Fin 128, agg x adj (i 0) k * W (ix2 (i 1) (hi k)))
         + b (ix1 (i 1))) 0

end Cert.SageSpec

end
-- ==== Proof.SageRef.lean ====
/-
  The reference's result, stage by stage, is the layer of SageSpec.

  The reference multiplies the concatenation [x | adj·x] : [10000,256] with the transposed weight.
  Column `lo k` of the concatenation is x's column k, column `hi k` is (adj·x)'s column k
  (`cat_lo`, `cat_hi`); the transposed weight at (k, o) is W at (o, k) (`wt`). So its product at
  (r, o), a sum over the 256 columns, splits by `sum_halves` into the two sums of the layer; the
  bias is read through its two broadcasts at o, and the rectifier is max(·, 0) with the zero word
  read as the real 0.
-/
import proofs.«108497_g21294447853583_cont_8to1_526_7_alg».proof.Proof.Gen.ReferenceIdeal.Read
import proofs.«108497_g21294447853583_cont_8to1_526_7_alg».proof.Proof.SageSpec
import Idealize.ShloMosaic.Lib.Pipeline.Value
import Idealize.ShloMosaic.Lib.ValueIdx
import Idealize.ShloMosaic.PureOps.Ideal.Laws

noncomputable section

namespace Cert.SageRef

open Cert.ReferenceIdeal Cert.ReferenceIdeal.Gen Cert.ReferenceIdeal.Read Cert.SageSpec
open Idealize.ShloMosaic Idealize.ShloMosaic.ValueIdx

variable (x : (⟨S10000x128, .f32⟩ : BufTy).Contents (Elt Ideal)) (adj : (⟨S10000x10000, .f32⟩ : BufTy).Contents (Elt Ideal))
  (W : (⟨S128x256, .f32⟩ : BufTy).Contents (Elt Ideal)) (b : (⟨S128, .f32⟩ : BufTy).Contents (Elt Ideal))

/-- The first product, adj · x, at (r, k) is the aggregate of the specification. -/
theorem hN_apply (r : Fin 10000) (k : Fin 128) : val_main_v0 (F := Ideal) x adj (ix2 r k) = agg x adj r k := by
  rw [val_main_v0_apply]
  unfold agg
  refine Finset.sum_congr rfl fun j _ => ?_
  have el : lidx_main_v0 (ix2 r k) j = ix2 r j := funext fun a => Fin.ext (by match a with | ⟨0, _⟩ => rfl | ⟨1, _⟩ => rfl)
  have er : ridx_main_v0 (ix2 r k) j = ix2 j k := funext fun a => Fin.ext (by match a with | ⟨0, _⟩ => rfl | ⟨1, _⟩ => rfl)
  rw [el, er]

/-- A column of the concatenation's first half is x's. -/
theorem cat_lo (r : Fin 10000) (o k : Fin 128) :
    val_main_v1 (F := Ideal) x adj (lidx_main_v3 (ix2 r o) (lo k)) = x (ix2 r k) := by
  unfold val_main_v1
  exact concatenate_pair_apply_left (1 : Fin 2) x (val_main_v0 (F := Ideal) x adj) concatenates_S10000x128_S10000x128_S10000x256_d1
    (lidx_main_v3 (ix2 r o) (lo k)) rfl (ix2 r k) (fun c => by match c with | ⟨0, _⟩ => rfl | ⟨1, _⟩ => rfl)

/-- A column of the concatenation's second half is the aggregate's. -/
theorem cat_hi (r : Fin 10000) (o k : Fin 128) :
    val_main_v1 (F := Ideal) x adj (lidx_main_v3 (ix2 r o) (hi k)) = agg x adj r k := by
  unfold val_main_v1
  refine (concatenate_pair_apply_right (1 : Fin 2) x (val_main_v0 (F := Ideal) x adj) concatenates_S10000x128_S10000x128_S10000x256_d1
    (lidx_main_v3 (ix2 r o) (hi k)) rfl rfl (ix2 r k) (fun c hc => by match c with | ⟨0, _⟩ => rfl | ⟨1, _⟩ => exact absurd rfl hc)
    (by show k.val + 128 = 128 + k.val; omega)).trans ?_
  exact hN_apply x adj r k

/-- The transposed weight at (k, o) is the weight at (o, k). -/
theorem wt (r : Fin 10000) (o : Fin 128) (k : Fin 256) :
    val_main_v2 (F := Ideal) W (ridx_main_v3 (ix2 r o) k) = W (ix2 o k) := by
  rw [val_main_v2_apply]
  exact congrArg W (funext fun a => Fin.ext (by match a with | ⟨0, _⟩ => rfl | ⟨1, _⟩ => rfl))

/-- The bias, broadcast to a row and then down the rows, at (r, o) is b at o. -/
theorem bias (r : Fin 10000) (o : Fin 128) : val_main_v5 (F := Ideal) b (ix2 r o) = b (ix1 o) := by
  rw [val_main_v5_apply, val_main_v4_apply]
  exact congrArg b (funext fun a => Fin.ext (by match a with | ⟨0, _⟩ => rfl))

/-- The reference's result is the layer. -/
theorem ref_is_layer : val_main_v7 (F := Ideal) x adj W b = layer x adj W b := by
  funext i
  obtain ⟨r, o, rfl⟩ : ∃ (r : Fin 10000) (o : Fin 128), i = ix2 r o := ⟨i 0, i 1, eq_ix2 i⟩
  rw [val_main_v7_apply, val_main_v6_apply, val_main_v3_apply, bias, val_main_call0_v0_apply, val_main_call0_cst_apply,
    sum_halves]
  simp only [cat_lo, cat_hi, wt, Ideal.maximumf_def, Ideal.addf_def, Ideal.ofBits_def, Ideal.ofBits_zero_f32]
  rfl

end Cert.SageRef

end
-- ==== Proof.SagePayload.lean ====
/-
  What one grid step computes, at an index of its [400,128] output block.

  The body's one stored value is a pure function of six loaded blocks: xb (400 rows of x), a (400 rows
  of adj), xw (all of x), w1 and w2 (the two 128×128 halves of the transposed weight) and b1 (the bias
  as one row). Read at (p, q):

      max ( Σ_k xb[p,k]·w1[k,q]  +  Σ_k (Σ_j a[p,j]·xw[j,k])·w2[k,q]  +  b1[0,q] ,  0 ).

  Each matrix product into a zero accumulator is, on the extended reals, the plain sum of products over
  the contracted axis (`mm_agg`, `mm_proj`); the 128×128 and 1×128 shape casts are identities, and the
  bias row is repeated down the 400 rows.
-/
import proofs.«108497_g21294447853583_cont_8to1_526_7_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.SageKernel

open Cert.KernelIdeal Cert.KernelIdeal.Gen
open Idealize.ShloMosaic Idealize.ShloMosaic.ValueIdx

/-! ## The two matrix products at an index -/

/-- The operand indices of the [400,10000]×[10000,128] product at output index `i` and contraction index `c`:
    the left operand is read at (row of i, c), the right at (c, column of i). -/
theorem agg_lhs0 (i : S400x128.Idx) (c : dot_S400x10000_S10000x128_S400x128_1_0_0_1_n_n.contr.Idx) : (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs1 (i : S400x128.Idx) (c : dot_S400x10000_S10000x128_S400x128_1_0_0_1_n_n.contr.Idx) : (dot_S400x10000_S10000x128_S400x128_1_0_0_1_n_n.lhsIdx i c 1).val = (c ⟨0, by decide⟩).val :=
  dot_S400x10000_S10000x128_S400x128_1_0_0_1_n_n.lhsIdx_val_of_single rfl i c
theorem agg_rhs0 (i : S400x128.Idx) (c : dot_S400x10000_S10000x128_S400x128_1_0_0_1_n_n.contr.Idx) : (dot_S400x10000_S10000x128_S400x128_1_0_0_1_n_n.rhsIdx i c 0).val = (c ⟨0, by decide⟩).val :=
  dot_S400x10000_S10000x128_S400x128_1_0_0_1_n_n.rhsIdx_val_of_single rfl i c
theorem agg_rhs1 (i : S400x128.Idx) (c : dot_S400x10000_S10000x128_S400x128_1_0_0_1_n_n.contr.Idx) : (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- 400 rows of adj times all of x, into zero: entry (p, q) is Σ_j a[p,j]·xw[j,q]. -/
theorem mm_agg (a : FVec Ideal S400x10000 .f32) (xw : FVec Ideal S10000x128 .f32) (p : Fin 400) (q : Fin 128) :
    matmul dot_S400x10000_S10000x128_S400x128_1_0_0_1_n_n none a xw (constant (F := Ideal) S400x128 .f32 0x00000000#32) (ix2 p q)
      = ∑ j : Fin 10000, a (ix2 p j) * xw (ix2 j q) := by
  simp only [matmul]
  rw [Ideal.matmul_constant_zero_apply, ← Equiv.sum_comp (contrEquiv1 dot_S400x10000_S10000x128_S400x128_1_0_0_1_n_n 10000 rfl rfl).symm]
  refine Finset.sum_congr rfl fun j _ => ?_
  have hj := contrEquiv1_symm_val dot_S400x10000_S10000x128_S400x128_1_0_0_1_n_n 10000 rfl rfl j
  have el : dot_S400x10000_S10000x128_S400x128_1_0_0_1_n_n.lhsIdx (ix2 p q) ((contrEquiv1 dot_S400x10000_S10000x128_S400x128_1_0_0_1_n_n 10000 rfl rfl).symm j) = ix2 p j := funext fun d => Fin.ext (by
    match d with
    | ⟨0, _⟩ => exact agg_lhs0 _ _
    | ⟨1, _⟩ => exact (agg_lhs1 _ _).trans hj)
  have er : dot_S400x10000_S10000x128_S400x128_1_0_0_1_n_n.rhsIdx (ix2 p q) ((contrEquiv1 dot_S400x10000_S10000x128_S400x128_1_0_0_1_n_n 10000 rfl rfl).symm j) = ix2 j q := funext fun d => Fin.ext (by
    match d with
    | ⟨0, _⟩ => exact (agg_rhs0 _ _).trans hj
    | ⟨1, _⟩ => exact agg_rhs1 _ _)
  rw [el, er]

/-- The operand indices of a [400,128]×[128,128] product, likewise. -/
theorem proj_lhs0 (i : S400x128.Idx) (c : dot_S400x128_S128x128_S400x128_1_0_0_1_n_n.contr.Idx) : (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem proj_lhs1 (i : S400x128.Idx) (c : dot_S400x128_S128x128_S400x128_1_0_0_1_n_n.contr.Idx) : (dot_S400x128_S128x128_S400x128_1_0_0_1_n_n.lhsIdx i c 1).val = (c ⟨0, by decide⟩).val :=
  dot_S400x128_S128x128_S400x128_1_0_0_1_n_n.lhsIdx_val_of_single rfl i c
theorem proj_rhs0 (i : S400x128.Idx) (c : dot_S400x128_S128x128_S400x128_1_0_0_1_n_n.contr.Idx) : (dot_S400x128_S128x128_S400x128_1_0_0_1_n_n.rhsIdx i c 0).val = (c ⟨0, by decide⟩).val :=
  dot_S400x128_S128x128_S400x128_1_0_0_1_n_n.rhsIdx_val_of_single rfl i c
theorem proj_rhs1 (i : S400x128.Idx) (c : dot_S400x128_S128x128_S400x128_1_0_0_1_n_n.contr.Idx) : (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A [400,128] block times a 128×128 half of the weight, into zero: entry (p, q) is Σ_k l[p,k]·w[k,q]. -/
theorem mm_proj (l : FVec Ideal S400x128 .f32) (w : FVec Ideal S128x128 .f32) (p : Fin 400) (q : Fin 128) :
    matmul dot_S400x128_S128x128_S400x128_1_0_0_1_n_n none l w (constant (F := Ideal) S400x128 .f32 0x00000000#32) (ix2 p q)
      = ∑ k : Fin 128, l (ix2 p k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun d => Fin.ext (by
    match d with
    | ⟨0, _⟩ => exact proj_lhs0 _ _
    | ⟨1, _⟩ => exact (proj_lhs1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun d => Fin.ext (by
    match d with
    | ⟨0, _⟩ => exact (proj_rhs0 _ _).trans hk
    | ⟨1, _⟩ => exact proj_rhs1 _ _)
  rw [el, er]

/-! ## The stored value at an index -/

/-- The value one grid step stores, at (p, q) of its block, from the six loaded blocks. -/
theorem pay_apply (xb : FVec Ideal S400x128 .f32) (a : FVec Ideal S400x10000 .f32) (xw : FVec Ideal S10000x128 .f32)
    (w1 w2 : FVec Ideal S128x128 .f32) (b1 : FVec Ideal S1x128 .f32) (p : Fin 400) (q : Fin 128) :
    k0_pay1 (F := Ideal) xb a xw w1 w2 b1 (ix2 p q)
      = max ((∑ k : Fin 128, xb (ix2 p k) * w1 (ix2 k q)
              + ∑ k : Fin 128, (∑ j : Fin 10000, a (ix2 p j) * xw (ix2 j k)) * w2 (ix2 k q))
             + b1 (ix2 (0 : Fin 1) q)) 0 := by
  unfold k0_pay1
  rw [maximumf_apply, addf_apply, addf_apply, broadcast_apply, shapeCast_self, shapeCast_self, shapeCast_self,
    broadcastTo_1b_ab_apply, mm_proj, mm_proj]
  simp only [mm_agg, Ideal.ofBits_def, Ideal.ofBits_zero_f32]

end Cert.SageKernel

end
-- ==== Proof.SageBlock.lean ====
/-
  One grid step's stored block is a band of 400 rows of the layer.

  Let the step's six loaded blocks be rows `row p` (p < 400) of x and of adj, all of x, the two halves
  of the transposed weight (entry (k, q) of the first half is W[q, k], of the second W[q, 128+k]) and
  the bias as one row. Then the value it stores at (p, q) is the layer's entry (row p, q): both are
  max(Σ_k x[row p,k]·W[q,k] + Σ_k (adj·x)[row p,k]·W[q,128+k] + b[q], 0), term for term.
-/
import proofs.«108497_g21294447853583_cont_8to1_526_7_alg».proof.Proof.SageSpec
import proofs.«108497_g21294447853583_cont_8to1_526_7_alg».proof.Proof.SagePayload

noncomputable section

namespace Cert.SageKernel

open Cert.KernelIdeal Cert.KernelIdeal.Gen Cert.SageSpec
open Idealize.ShloMosaic Idealize.ShloMosaic.ValueIdx

theorem block_is_layer (X : FVec Ideal S10000x128 .f32) (A : FVec Ideal S10000x10000 .f32) (Wm : FVec Ideal S128x256 .f32)
    (Bv : FVec Ideal S128 .f32)
    (xb : FVec Ideal S400x128 .f32) (a : FVec Ideal S400x10000 .f32) (xw : FVec Ideal S10000x128 .f32)
    (w1 w2 : FVec Ideal S128x128 .f32) (b1 : FVec Ideal S1x128 .f32) (row : Fin 400 → Fin 10000)
    (hxb : ∀ p k, xb (ix2 p k) = X (ix2 (row p) k))
    (ha : ∀ p j, a (ix2 p j) = A (ix2 (row p) j))
    (hxw : xw = X)
    (hw1 : ∀ k q, w1 (ix2 k q) = Wm (ix2 q (lo k)))
    (hw2 : ∀ k q, w2 (ix2 k q) = Wm (ix2 q (hi k)))
    (hb1 : ∀ q, b1 (ix2 (0 : Fin 1) q) = Bv (ix1 q))
    (p : Fin 400) (q : Fin 128) :
    k0_pay1 (F := Ideal) xb a xw w1 w2 b1 (ix2 p q) = layer X A Wm Bv (ix2 (row p) q) := by
  subst hxw
  rw [pay_apply]
  unfold layer agg
  simp only [hxb, ha, hw1, hw2, hb1]

end Cert.SageKernel

end
-- ==== Proof.SageStep.lean ====
/-
  What one grid step leaves in its output block, and what the step finds in the three arrays the
  host prepared — for any reading of the floats.

  The body stores once, through the whole [400,128] block, so the block ends at the stored value: the
  body's arithmetic applied to its six loads. Five loads read a whole staging buffer; the sixth reads
  400 rows of the resident copy of x starting at row 400·(step number) (`stored_block`).

  Before the region the host writes three arrays from the arguments: the weight transposed to
  [256,128] and cut into its rows 0–127 and 128–255, and the bias reshaped to one row
  (`found_w1`, `found_w2`, `found_b1`).
-/
import proofs.«108497_g21294447853583_cont_8to1_526_7_alg».proof.Proof.Gen.KernelIdeal.Frame
import Idealize.ShloMosaic.Lib.Pipeline.Value
import Idealize.ShloMosaic.Lib.StableHlo.Run
import Idealize.ShloMosaic.Lib.Tactic

noncomputable section

namespace Cert.SageKernel

open Cert.KernelIdeal Cert.KernelIdeal.Gen
open Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- The output block after one step: the body's arithmetic of 400 rows of x (from the step's row offset), the
    adj block, all of x, the two weight halves and the bias row. -/
theorem stored_block (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S128x128 .f32) (h4 : a4.IsWhole) (a5 : Memref sig .tc .vmem S1x128 .f32) (h5 : a5.IsWhole)
    (a6 : Memref sig .tc .vmem S400x128 .f32) (h6 : a6.IsWhole)
    (x0 : Vec F S400x10000 .f32) (x1 : Vec F S10000x128 .f32) (x2 : Vec F S128x128 .f32) (x3 : Vec F S128x128 .f32) (x4 : Vec F S1x128 .f32) :
    out0_A_5 c i a1 h1 a2 h2 a3 h3 a4 h4 a5 h5 a6 h6 x0 x1 x2 x3 x4
      = k0_pay1 (View.ld x1 (Rect.unit (s := S10000x128) (k0_off1 i) S400x128.size (k0_off1_inb i))) x0 x1 x2 x3 x4 := by
  unfold out0_A_5
  rw [View.read_writes_eq_canon _ _ _ (cover0_A_5 c i a1 h1 a2 h2 a3 h3 a4 h4 a5 h5 a6 h6 x0 x1 x2 x3 x4)]
  unfold kernelRun0_A
  dsimp only
  rw [View.canon_unit_zero zero_offsets]
  simp only [View.readAt_eq_ld, h1.read_unread, h2.read_unread, h3.read_unread, h4.read_unread, h5.read_unread,
    View.ld_unit_zero (S := S400x10000) zero_offsets, View.ld_unit_zero (S := S10000x128) zero_offsets,
    View.ld_unit_zero (S := S128x128) zero_offsets, View.ld_unit_zero (S := S1x128) zero_offsets]

variable (m : (ℓ : Loc nD τ sig) → Buf (Elt F) ℓ)

/-- The first weight half as the region finds it: rows 0–127 of the transposed weight. -/
theorem found_w1 (c : Dev nD) : (V m c main_call0_v1 : S128x128.Idx → Elt F .f32)
    = extractStridedSlice S128x128 ![0, 0] (transpose S256x128 [1, 0] (m ((c : Thread nD τ).loc main_arg2)) transposes_S128x256_S256x128_1_0) slices_S256x128_S128x128_0_0 := by
  dsimp only [V, hostOps0]
  after_results
  rfl

/-- The second weight half: rows 128–255 of the transposed weight. -/
theorem found_w2 (c : Dev nD) : (V m c main_call0_v2 : S128x128.Idx → Elt F .f32)
    = extractStridedSlice S128x128 ![128, 0] (transpose S256x128 [1, 0] (m ((c : Thread nD τ).loc main_arg2)) transposes_S128x256_S256x128_1_0) slices_S256x128_S128x128_128_0 := by
  dsimp only [V, hostOps0]
  after_results
  rfl

/-- The bias as one row. -/
theorem found_b1 (c : Dev nD) : (V m c main_call0_v3 : S1x128.Idx → Elt F .f32)
    = shapeCast S1x128 (m ((c : Thread nD τ).loc main_arg3)) shapeCasts_S128_S1x128 := by
  dsimp only [V, hostOps0]
  after_results
  rfl

end Cert.SageKernel

end
-- ==== Proof.SageArray.lean ====
/-
  From the grid's 25 steps to the whole result array, on the extended reals.

  Step t works on rows 400·t … 400·t+399: its adj block is those rows of adj, the 400 rows of x it
  slices from the resident copy are those rows of x, and the block it writes back is those rows of the
  result; the weight halves and the bias row are the same at every step. The printed index maps are
  decided once over the 25 steps (`idx_facts`). With one step's stored block read as a band of the layer
  (SageBlock), every write-back is a block of ONE array, the layer of the four arguments (`flushed_eq`);
  row r lies in the block of step r / 400, so the 25 blocks cover the array (`cover`), and the array the
  run leaves is the layer (`final`, `run`).
-/
import proofs.«108497_g21294447853583_cont_8to1_526_7_alg».proof.Proof.Gen.KernelIdeal.Value
import proofs.«108497_g21294447853583_cont_8to1_526_7_alg».proof.Proof.SageSpec
import proofs.«108497_g21294447853583_cont_8to1_526_7_alg».proof.Proof.SageBlock
import proofs.«108497_g21294447853583_cont_8to1_526_7_alg».proof.Proof.SageStep
import Idealize.ShloMosaic.Lib.Pipeline.Value
import Idealize.ShloMosaic.Lib.ValueIdx
import Idealize.ShloMosaic.Lib.ValueLayout

noncomputable section

namespace Cert.SageKernel

open Cert.KernelIdeal Cert.KernelIdeal.Gen Cert.SageSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 25 steps: the adj window and the output window are at block row t, column
    block 0; every other window stays at block (0, 0); the grid coordinate of step t is t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

/-- Row p of step t's band, as a row of the arrays. -/
def rowAt (t : Fin cfg0.N) (p : Fin 400) : Fin 10000 :=
  ⟨400 * t.val + p.val, by have h := t.isLt; have hN : cfg0.N = 25 := N_0; have := p.isLt; omega⟩

/-- The result: the layer of the four arguments as launched. -/
abbrev result (c : Dev nD) : Buf (Elt Ideal) ((c : Thread nD τ).loc main_v0) :=
  layer (m ((c : Thread nD τ).loc main_arg0)) (m ((c : Thread nD τ).loc main_arg1)) (m ((c : Thread nD τ).loc main_arg2)) (m ((c : Thread nD τ).loc main_arg3))

/-! ## The six loaded blocks at an index -/

/-- The adj block of step t is rows 400t … of adj. -/
theorem adj_block (c : Dev nD) (t : Fin cfg0.N) (p : Fin 400) (j : Fin 10000) :
    iblk m c 0 t (ix2 p j) = (m ((c : Thread nD τ).loc main_arg1)) (ix2 (rowAt t p) j) := by
  obtain ⟨e0, e1, -⟩ := idx_facts t
  show V m c main_arg1 (((cfg0.win 0).blk t).view.emb (ix2 p j)) = _
  refine (congrFun (V_main_arg1 m c) _).trans (congrArg (m ((c : Thread nD τ).loc main_arg1)) (funext fun a => Fin.ext ?_))
  match a with
  | ⟨0, _⟩ => show win0_0.index t (0 : Fin 2) * 400 + 1 * p.val = 400 * t.val + p.val; rw [e0]; omega
  | ⟨1, _⟩ => show win0_0.index t (1 : Fin 2) * 10000 + 1 * j.val = j.val; rw [e1]; omega

/-- The resident copy of x is all of x, at every step. -/
theorem x_whole (c : Dev nD) (t : Fin cfg0.N) :
    (iblk m c 1 t : FVec Ideal S10000x128 .f32) = (m ((c : Thread nD τ).loc main_arg0)) := by
  obtain ⟨-, -, e0, e1, -⟩ := idx_facts t
  funext y
  show V m c main_arg0 (((cfg0.win 1).blk t).view.emb y) = _
  refine (congrFun (V_main_arg0 m c) _).trans (congrArg (m ((c : Thread nD τ).loc main_arg0)) (funext fun a => Fin.ext ?_))
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The 400 rows the body slices from the resident copy at step t are rows 400t … of x. -/
theorem x_rows (c : Dev nD) (t : Fin cfg0.N) (p : Fin 400) (k : Fin 128) :
    View.ld (iblk m c 1 t : FVec Ideal S10000x128 .f32)
        (Rect.unit (s := S10000x128) (k0_off1 (grid0.coords t)) S400x128.size (k0_off1_inb (grid0.coords t))) (ix2 p k)
      = (m ((c : Thread nD τ).loc main_arg0)) (ix2 (rowAt t p) k) := by
  have eg : (grid0.coords t 0).val = t.val := (idx_facts t).2.2.2.2.2.2.2.2.2.2.2.2
  have hoff := k0_off1_eq (grid0.coords t)
  rw [x_whole]
  show (m ((c : Thread nD τ).loc main_arg0)) ((Rect.unit (s := S10000x128) (k0_off1 (grid0.coords t)) S400x128.size (k0_off1_inb (grid0.coords t))).idx (ix2 p k)) = _
  refine congrArg (m ((c : Thread nD τ).loc main_arg0)) (funext fun a => Fin.ext ?_)
  match a with
  | ⟨0, _⟩ =>
    show k0_off1 (grid0.coords t) 0 + 1 * p.val = 400 * t.val + p.val
    rw [hoff]; show 400 * (grid0.coords t 0).val + 1 * p.val = 400 * t.val + p.val; rw [eg]; omega
  | ⟨1, _⟩ =>
    show k0_off1 (grid0.coords t) 1 + 1 * k.val = k.val
    rw [hoff]; show 0 + 1 * k.val = k.val; omega

/-- The first weight half at (k, q) is W at (q, k). -/
theorem w1_block (c : Dev nD) (t : Fin cfg0.N) (k q : Fin 128) :
    iblk m c 2 t (ix2 k q) = (m ((c : Thread nD τ).loc main_arg2)) (ix2 q (lo k)) := by
  obtain ⟨-, -, -, -, e0, e1, -⟩ := idx_facts t
  show V m c main_call0_v1 (((cfg0.win 2).blk t).view.emb (ix2 k q)) = _
  have hemb : ((cfg0.win 2).blk t).view.emb (ix2 k q) = ix2 k q := funext fun a => Fin.ext (by
    match a with
    | ⟨0, _⟩ => show win0_2.index t (0 : Fin 2) * 128 + 1 * k.val = k.val; rw [e0]; omega
    | ⟨1, _⟩ => show win0_2.index t (1 : Fin 2) * 128 + 1 * q.val = q.val; rw [e1]; omega)
  refine (congrArg (V m c main_call0_v1) hemb).trans ((congrFun (found_w1 m c) (ix2 k q)).trans ?_)
  exact (slice2_axis0_apply 0 _ slices_S256x128_S128x128_0_0 k q (lo k) (Nat.zero_add _).symm).trans
    (transpose_ix2_apply _ transposes_S128x256_S256x128_1_0 (lo k) q)

/-- The second weight half at (k, q) is W at (q, 128 + k). -/
theorem w2_block (c : Dev nD) (t : Fin cfg0.N) (k q : Fin 128) :
    iblk m c 3 t (ix2 k q) = (m ((c : Thread nD τ).loc main_arg2)) (ix2 q (hi k)) := by
  obtain ⟨-, -, -, -, -, -, e0, e1, -⟩ := idx_facts t
  show V m c main_call0_v2 (((cfg0.win 3).blk t).view.emb (ix2 k q)) = _
  have hemb : ((cfg0.win 3).blk t).view.emb (ix2 k q) = ix2 k q := funext fun a => Fin.ext (by
    match a with
    | ⟨0, _⟩ => show win0_3.index t (0 : Fin 2) * 128 + 1 * k.val = k.val; rw [e0]; omega
    | ⟨1, _⟩ => show win0_3.index t (1 : Fin 2) * 128 + 1 * q.val = q.val; rw [e1]; omega)
  refine (congrArg (V m c main_call0_v2) hemb).trans ((congrFun (found_w2 m c) (ix2 k q)).trans ?_)
  exact (slice2_axis0_apply 128 _ slices_S256x128_S128x128_128_0 k q (hi k) rfl).trans
    (transpose_ix2_apply _ transposes_S128x256_S256x128_1_0 (hi k) q)

/-- The bias row at q is b at q. -/
theorem b_block (c : Dev nD) (t : Fin cfg0.N) (q : Fin 128) :
    iblk m c 4 t (ix2 (0 : Fin 1) q) = (m ((c : Thread nD τ).loc main_arg3)) (ix1 q) := by
  obtain ⟨-, -, -, -, -, -, -, -, e0, e1, -⟩ := idx_facts t
  show V m c main_call0_v3 (((cfg0.win 4).blk t).view.emb (ix2 (0 : Fin 1) q)) = _
  have hemb : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e0]
    | ⟨1, _⟩ => show win0_4.index t (1 : Fin 2) * 128 + 1 * q.val = q.val; rw [e1]; omega)
  refine (congrArg (V m c main_call0_v3) hemb).trans ((congrFun (found_b1 m c) (ix2 (0 : Fin 1) q)).trans ?_)
  exact shapeCast_a_1a_apply _ shapeCasts_S128_S1x128 (0 : Fin 1) q

/-- Index (p, q) of step t's output block is index (400t + p, q) of the result array. -/
theorem out_emb (t : Fin cfg0.N) (p : Fin 400) (q : Fin 128) :
    ((cfg0.win 5).blk t).view.emb (ix2 p q) = ix2 (rowAt t p) q := by
  obtain ⟨-, -, -, -, -, -, -, -, -, -, e0, e1, -⟩ := idx_facts t
  refine funext fun a => Fin.ext ?_
  match a with
  | ⟨0, _⟩ => show win0_5.index t (0 : Fin 2) * 400 + 1 * p.val = 400 * t.val + p.val; rw [e0]; omega
  | ⟨1, _⟩ => show win0_5.index t (1 : Fin 2) * 128 + 1 * q.val = q.val; rw [e1]; omega

/-! ## Every write-back is a block of the layer; the blocks cover the array -/

/-- What step t writes back is block t of the layer of the arguments. -/
theorem flushed_eq (c : Dev nD) (t : Fin cfg0.N) :
    (dats m 0 c).flushed 5 t = ((cfg0.win 5).blk t).view.read (Elt Ideal) (result m c) := by
  rw [Cert.KernelIdeal.Value.flushed5_A, stored_block]
  funext y
  have h0 : (y 0).val < 400 := (y 0).isLt
  have h1 : (y 1).val < 128 := (y 1).isLt
  obtain ⟨p, q, rfl⟩ : ∃ (p : Fin 400) (q : Fin 128), y = ix2 p q :=
    ⟨⟨(y 0).val, h0⟩, ⟨(y 1).val, h1⟩, funext fun a => by match a with | ⟨0, _⟩ => rfl | ⟨1, _⟩ => rfl⟩
  show k0_pay1 (F := Ideal)
      (View.ld (iblk m c 1 t : FVec Ideal S10000x128 .f32) (Rect.unit (s := S10000x128) (k0_off1 (grid0.coords t)) S400x128.size (k0_off1_inb (grid0.coords t))))
      (iblk m c 0 t) (iblk m c 1 t) (iblk m c 2 t) (iblk m c 3 t) (iblk m c 4 t) (ix2 p q)
    = result m c (((cfg0.win 5).blk t).view.emb (ix2 p q))
  rw [out_emb]
  exact block_is_layer (m ((c : Thread nD τ).loc main_arg0)) (m ((c : Thread nD τ).loc main_arg1)) (m ((c : Thread nD τ).loc main_arg2)) (m ((c : Thread nD τ).loc main_arg3))
    (View.ld (iblk m c 1 t : FVec Ideal S10000x128 .f32) (Rect.unit (s := S10000x128) (k0_off1 (grid0.coords t)) S400x128.size (k0_off1_inb (grid0.coords t))))
    (iblk m c 0 t) (iblk m c 1 t) (iblk m c 2 t) (iblk m c 3 t) (iblk m c 4 t) (rowAt t)
    (x_rows m c t) (adj_block m c t) (x_whole m c t) (w1_block m c t) (w2_block m c t) (b_block m c t) p q

/-- An index of the array is in step t's block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- Row r is in the block of step r / 400. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  have ht : (i 0).val / 400 < cfg0.N := by rw [hN]; omega
  refine ⟨⟨(i 0).val / 400, ht⟩, flush0_5 _, ?_⟩
  rw [mem_blk]
  obtain ⟨-, -, -, -, -, -, -, -, -, -, e0, e1, -⟩ := idx_facts ⟨(i 0).val / 400, ht⟩
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e1]; omega

/-- The array the run leaves is the layer. -/
theorem final (c : Dev nD) : (dats m 0 c).arrAt 5 cfg0.N = result m c :=
  (dats m 0 c).arrAt_eq_of_cover 5 (result m c) (fun t _ => flushed_eq m c t) cover

/-- The run: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.SageKernel

end
-- ==== Proof.lean ====
/-
  A GraphSAGE layer, fused into one kernel, against its reference, on the extended reals.

  Both programs take x : [10000,128], adj : [10000,10000], W : [128,256], b : [128]. The reference forms
  adj·x, concatenates [x | adj·x] : [10000,256], multiplies by the transposed weight, adds the bias and
  rectifies. The kernel never forms the concatenation: it cuts the transposed weight into the half that
  meets x and the half that meets adj·x, and for each band of 400 rows computes
  max(x·W₁ᵗ + (adj·x)·W₂ᵗ + b, 0) directly. Entry (r, o) of either result is

      max ( Σ_{k<128} x[r,k]·W[o,k]  +  Σ_{k<128} (Σ_j adj[r,j]·x[j,k])·W[o,128+k]  +  b[o] ,  0 ):

  the reference's sum over the 256 columns of the concatenation is the sum of its two halves, which is
  all that separates the two sides, and that needs no finiteness of the entries. The kernel's result
  array is this function of the arguments (SageArray), and so is the reference's (SageRef). The
  idealized kernel is the printed kernel read at the ideal values with no rewrite, so there is nothing
  to preserve; the three programs run, fault-free, with their arguments unchanged.
-/
import proofs.«108497_g21294447853583_cont_8to1_526_7_alg».proof.Defs
import proofs.«108497_g21294447853583_cont_8to1_526_7_alg».proof.Proof.Gen.Kernel
import proofs.«108497_g21294447853583_cont_8to1_526_7_alg».proof.Proof.Gen.Kernel.Skeleton
import proofs.«108497_g21294447853583_cont_8to1_526_7_alg».proof.Proof.Gen.Kernel.Launch
import proofs.«108497_g21294447853583_cont_8to1_526_7_alg».proof.Proof.Gen.Kernel.Points
import proofs.«108497_g21294447853583_cont_8to1_526_7_alg».proof.Proof.Gen.Kernel.Frame
import proofs.«108497_g21294447853583_cont_8to1_526_7_alg».proof.Proof.Gen.KernelIdeal
import proofs.«108497_g21294447853583_cont_8to1_526_7_alg».proof.Proof.Gen.KernelIdeal.Skeleton
import proofs.«108497_g21294447853583_cont_8to1_526_7_alg».proof.Proof.Gen.KernelIdeal.Launch
import proofs.«108497_g21294447853583_cont_8to1_526_7_alg».proof.Proof.Gen.KernelIdeal.Points
import proofs.«108497_g21294447853583_cont_8to1_526_7_alg».proof.Proof.Gen.KernelIdeal.Frame
import proofs.«108497_g21294447853583_cont_8to1_526_7_alg».proof.Proof.Gen.ReferenceIdeal
import proofs.«108497_g21294447853583_cont_8to1_526_7_alg».proof.Proof.Gen.Pre_finite_inputs
import proofs.«108497_g21294447853583_cont_8to1_526_7_alg».proof.Proof.Gen.KernelIdeal.Value
import proofs.«108497_g21294447853583_cont_8to1_526_7_alg».proof.Proof.Gen.ReferenceIdeal.Run
import proofs.«108497_g21294447853583_cont_8to1_526_7_alg».proof.Proof.Gen.ReferenceIdeal.Read
import Idealize.ShloMosaic.Adequacy
import Idealize.ShloMosaic.Init
import proofs.«108497_g21294447853583_cont_8to1_526_7_alg».proof.Proof.SageRef
import proofs.«108497_g21294447853583_cont_8to1_526_7_alg».proof.Proof.SageArray

noncomputable section

namespace Cert.Proof

open Idealize.ShloMosaic Idealize.SL.Sem

/-- The three programs run to the end, nothing faulting, their arguments unchanged. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments, the kernel's result array and the reference's both end at
    the layer of those arguments. -/
theorem algebraic : Cert.algebraic_KernelIdeal_ReferenceIdeal := by
  intro m ρ m' ρ' _ hagree
  refine ⟨fun c => Cert.SageKernel.result m c, Cert.SageKernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.SageRef.ref_is_layer _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
